-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128x64 : Shape := ⟨2, ![128, 64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : FVec F S100000x256 .f32) (main_arg1 : IVec S1600000 32) (main_arg2 : IVec S1600000 32) (main_arg3 : FVec F S1600000 .f32) (main_arg4 : FVec F S256x128 .f32) (main_arg5 : FVec F S128x64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128x64 : Shape := ⟨2, ![128, 64]⟩
abbrev S100000x128 : Shape := ⟨2, ![100000, 128]⟩
abbrev S5000x256 : Shape := ⟨2, ![5000, 256]⟩
abbrev S5000x128 : Shape := ⟨2, ![5000, 128]⟩
abbrev S1600000x1 : Shape := ⟨2, ![1600000, 1]⟩
abbrev S_ : Shape := ⟨0, ![]⟩
abbrev S1600000x128 : Shape := ⟨2, ![1600000, 128]⟩
abbrev S100000x64 : Shape := ⟨2, ![100000, 64]⟩
abbrev S5000x64 : Shape := ⟨2, ![5000, 64]⟩
abbrev S1600000x64 : Shape := ⟨2, ![1600000, 64]⟩
abbrev S5000 : Shape := ⟨1, ![5000]⟩
abbrev S5000x1 : Shape := ⟨2, ![5000, 1]⟩

abbrev nBuf : Space → Nat
  | .hbm => 41
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128x64, .f32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x64, .f32⟩
  | .hbm, ⟨24, _⟩ => ⟨S1600000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S1600000x64, .f32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v27) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128x64 : Shape := ⟨2, ![128, 64]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S100000x64 : Shape := ⟨2, ![100000, 64]⟩
abbrev S1600000x64 : Shape := ⟨2, ![1600000, 64]⟩
abbrev S100000 : Shape := ⟨1, ![100000]⟩
abbrev S100000x1 : Shape := ⟨2, ![100000, 1]⟩

abbrev nBuf : Space → Nat
  | .hbm => 60
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128x64, .f32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x64, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000, .f32⟩
  | .hbm, ⟨48, _⟩ => ⟨S_, .f32⟩
  | .hbm, ⟨49, _⟩ => ⟨S100000, .f32⟩
  | .hbm, ⟨50, _⟩ => ⟨S100000, .f32⟩
  | .hbm, ⟨51, _⟩ => ⟨S100000x1, .f32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S100000, .f32⟩
  | .hbm, ⟨57, _⟩ => ⟨S100000x1, .f32⟩
  | .hbm, ⟨58, _⟩ => ⟨S100000x64, .f32⟩
  | .hbm, ⟨59, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_cst : Ref sig .tc := ⟨.hbm, 43, rfl⟩
abbrev main_call1_v0 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel program's run, with the result array named.

  The program is three tiled stages with two stretches of host operations between them. The contents of
  every buffer at each of the six boundaries form a fold from the launch memory (`Gen.W0` … `Gen.W5`):
  a stage replaces its output array by what its grid points write back, a host stretch applies its
  operations. Every weakly fair execution terminates with each unscoped buffer at the last boundary's
  contents `Gen.W5`; read at the result buffer this names the result, and read at an argument it gives the
  launch contents back.
-/
import proofs.«116212_j88381837017215_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the six argument arrays end as launched. -/
theorem run : θ_run defs (onTc (τ := τ) (main (F := F))) ⟨m, fun _ => 0, ρ⟩ (fun r => ∀ c : Dev nD,
      r.2.mem ((c.tc : Thread nD τ).loc main_v28) = W5 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v28 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.RunValue

end
-- ==== Proof.LibRowSoftmax.lean ====
/-
  Row-wise softmax read at an index, at the ideal (extended-real) values.

  A kernel that normalises the rows of an `[a, b]` matrix writes
  `exp (s - max_row s) / sum_row (exp (s - max_row s))`, the two row statistics taken by a reduction over
  axis 1, turned into a column `[a, 1]` and spread back over the `b` lanes. Entry `(r, j)` of the result
  depends on row `r` of `s` only: it is `softmaxOf (fun j' => s (r, j')) j`, where
  `softmaxOf f j = exp (f j - M) / ∑ j', exp (f j' - M)` and `M` is the maximum of `f` folded from `-∞`.
  No algebra on the extended reals is used: each printed operation is read at the index.
-/
import Idealize.ShloMosaic.PureOps.Ideal.Laws
import Idealize.ShloMosaic.Lib.ValueIdx
import Idealize.ShloMosaic.Lib.ValueLayout

noncomputable section

namespace Cert.Lib.RowSoftmax

open Idealize.ShloMosaic Idealize.ShloMosaic.ValueIdx

/-! ## The two keep-dims layout steps -/

section Layout
variable {α : Type}

/-- A length-`a` vector cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(i, j)`, the column at `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a per-row statistic spread back over the lanes reads, at `(i, j)`, the statistic of row `i`. -/
theorem keepdims_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) :=
  (broadcastTo_a1_ab_apply _ hb i j).trans (shapeCast_a_a1_apply x hc i 0)

end Layout

/-! ## The two row reductions -/

/-- The index over row `r` with lane `j` inserted is `(r, j)`. -/
theorem lift_row {a b : ℕ} (h : (⟨2, ![a, b]⟩ : Shape).Reduces [1] ⟨1, ![a]⟩) (r : Fin a) (j : Fin b) :
    h.lift (ix1 r) j = ix2 r j := by
  funext c; apply Fin.ext
  match c with
  | ⟨0, _⟩ => rfl
  | ⟨1, _⟩ => rfl

/-- A maximum over the lanes, at row `r`: the fold of `max` from the accumulator's value over that row's entries. -/
theorem rowMax_apply {a b : ℕ} (s : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ s acc h hφ hacc (ix1 r)
      = (Finset.univ : Finset (Fin b)).fold max (Ideal.ofBits .f32 acc) (fun j => s (ix2 r j)) := by
  refine (Ideal.multiReduction_maximumf_single s acc h hφ hacc (ix1 r)).trans ?_
  show (Finset.univ : Finset (Fin b)).fold max (Ideal.ofBits .f32 acc) (fun j => s (h.lift (ix1 r) j)) = _
  exact congrArg (fun f => (Finset.univ : Finset (Fin b)).fold max (Ideal.ofBits .f32 acc) f)
    (funext fun j => congrArg s (lift_row h r j))

/-- A sum over the lanes, at row `r`: the sum of that row's entries. -/
theorem rowSum_apply {a b : ℕ} (p : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ p acc h hφ hacc (ix1 r) = ∑ j : Fin b, p (ix2 r j) := by
  refine (Ideal.multiReduction_add_single p acc h hφ hacc (ix1 r)).trans ?_
  show ∑ j : Fin b, p (h.lift (ix1 r) j) = _
  exact Finset.sum_congr rfl fun j _ => congrArg p (lift_row h r j)

/-! ## Softmax of one row -/

/-- `-∞`, as the bit pattern both programs start their maximum from. -/
abbrev negInf : EReal := Ideal.ofBits .f32 0xFF800000#32

/-- The maximum of a row, folded from `-∞`. -/
def maxOf {b : ℕ} (f : Fin b → EReal) : EReal := (Finset.univ : Finset (Fin b)).fold max negInf f

/-- Taking the maximum with `-∞` once more changes nothing: the fold already starts there. -/
theorem max_negInf_maxOf {b : ℕ} (f : Fin b → EReal) : max negInf (maxOf f) = maxOf f :=
  max_eq_right ((Finset.le_fold_max negInf).mpr (Or.inl le_rfl))

/-- The unnormalised weight of lane `j`: `exp (f j - max f)`. -/
def weightOf {b : ℕ} (f : Fin b → EReal) (j : Fin b) : EReal := Ideal.exp (f j - maxOf f)

/-- Softmax of a row at lane `j`: its weight over the sum of the row's weights. -/
def softmaxOf {b : ℕ} (f : Fin b → EReal) (j : Fin b) : EReal :=
  Ideal.div (weightOf f j) (∑ j' : Fin b, weightOf f j')

/-- The chain a kernel prints for a row-wise softmax of an `[a, b]` matrix `s` — row maximum, subtract, `exp`,
    row sum, divide, both statistics kept as columns and spread over the lanes — read at `(r, j)`: the softmax of
    row `r` at lane `j`. -/
theorem softmax_rows_apply {a b : ℕ} (s : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (j : Fin b) :
    divf
        (exp (subf s (broadcastTo ⟨2, ![a, b]⟩ (shapeCast ⟨2, ![a, 1]⟩
          (multiReduction .maximumf [1] ⟨1, ![a]⟩ s 0xFF800000#32 hr hφ hmax) hc) hb)))
        (broadcastTo ⟨2, ![a, b]⟩ (shapeCast ⟨2, ![a, 1]⟩
          (multiReduction .add [1] ⟨1, ![a]⟩
            (exp (subf s (broadcastTo ⟨2, ![a, b]⟩ (shapeCast ⟨2, ![a, 1]⟩
              (multiReduction .maximumf [1] ⟨1, ![a]⟩ s 0xFF800000#32 hr hφ hmax) hc) hb)))
            0x00000000#32 hr hφ hadd) hc) hb)
        (ix2 r j)
      = softmaxOf (fun j' => s (ix2 r j')) j := by
  -- the weights, entry by entry
  have hw : ∀ j' : Fin b,
      exp (subf s (broadcastTo ⟨2, ![a, b]⟩ (shapeCast ⟨2, ![a, 1]⟩
          (multiReduction .maximumf [1] ⟨1, ![a]⟩ s 0xFF800000#32 hr hφ hmax) hc) hb)) (ix2 r j')
        = weightOf (fun j'' => s (ix2 r j'')) j' := by
    intro j'
    show Ideal.exp (s (ix2 r j') - broadcastTo ⟨2, ![a, b]⟩ (shapeCast ⟨2, ![a, 1]⟩
          (multiReduction .maximumf [1] ⟨1, ![a]⟩ s 0xFF800000#32 hr hφ hmax) hc) hb (ix2 r j')) = _
    rw [keepdims_apply _ hc hb r j', rowMax_apply s _ hr hφ hmax r]
    rfl
  show Ideal.div _ _ = _
  rw [hw j, keepdims_apply _ hc hb r j, rowSum_apply _ _ hr hφ hadd r]
  unfold softmaxOf
  exact congrArg (Ideal.div _) (Finset.sum_congr rfl fun j' _ => hw j')

end Cert.Lib.RowSoftmax

end
-- ==== Proof.Spec.lean ====
/-
  What the network computes, index by index, on the extended reals.

  Two dense layers and a normalisation, each a function of whole arrays:
  * `rowsDotCols a w` at `(r, c)` is `∑ k, a (r, k) · w (k, c)`;
  * `reluRowsDotCols h w` is the same with every entry of `h` first replaced by its maximum with zero;
  * `reluRowSoftmax o` at `(r, j)` is the softmax, at lane `j`, of row `r` of `o` after the same maximum with zero.
  The zero is kept as the bit pattern both programs write, so it is never evaluated.
-/
import Idealize.ShloMosaic.PureOps.Ideal.Laws
import Idealize.ShloMosaic.Lib.ValueIdx
import proofs.«116212_j88381837017215_1_alg».proof.Proof.LibRowSoftmax

noncomputable section

namespace Cert.Spec

open Idealize.ShloMosaic Idealize.ShloMosaic.ValueIdx

/-- The zero both programs clamp at, as its bit pattern. -/
abbrev zeroWord : EReal := Ideal.ofBits .f32 0x00000000#32

/-- Rows of `a` against columns of `w`. -/
def rowsDotCols {M K N : ℕ} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0) k) * w (ix2 k (i 1))

/-- Rows of the clamped `h` against columns of `w`. -/
def reluRowsDotCols {M K N : ℕ} (h : (⟨2, ![M, K]⟩ : Shape).Idx → EReal) (w : (⟨2, ![K, N]⟩ : Shape).Idx → EReal) :
    (⟨2, ![M, N]⟩ : Shape).Idx → EReal :=
  fun i => ∑ k : Fin K, max (h (ix2 (i 0) k)) zeroWord * w (ix2 k (i 1))

/-- Row-wise softmax of the clamped `o`. -/
def reluRowSoftmax {M N : ℕ} (o : (⟨2, ![M, N]⟩ : Shape).Idx → EReal) : (⟨2, ![M, N]⟩ : Shape).Idx → EReal :=
  fun i => Cert.Lib.RowSoftmax.softmaxOf (fun j => max (o (ix2 (i 0) j)) zeroWord) (i 1)

end Cert.Spec

end
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.Stage0.lean ====
/-
  The first dense stage: what its output array holds when the stage is left.

  The grid has 20 points; point `t` stages rows `5000·t … 5000·t + 4999` of the left array and the whole
  right array, and writes back the product of the two staged blocks as rows `5000·t …` of the output. An
  entry of a product depends on the left operand only through its own row, so block `t` of the output is
  block `t` of `rowsDotCols` of the two whole arrays; the 20 blocks tile the 100000 rows, so the array ends
  holding `rowsDotCols` of the arrays as the stage found them. Narrowing both operands to a shorter float
  format first changes nothing on the extended reals.
-/
import proofs.«116212_j88381837017215_1_alg».proof.Proof.Gen.KernelIdeal.Frame
import proofs.«116212_j88381837017215_1_alg».proof.Proof.Spec
import proofs.«116212_j88381837017215_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Stage0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## One entry of the staged product -/

theorem lhs_row (j : S5000x128.Idx) (q : dot_S5000x256_S256x128_S5000x128_1_0_0_1_n_n.contr.Idx) : (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_contr (j : S5000x128.Idx) (q : dot_S5000x256_S256x128_S5000x128_1_0_0_1_n_n.contr.Idx) : (dot_S5000x256_S256x128_S5000x128_1_0_0_1_n_n.lhsIdx j q 1).val = (q ⟨0, by decide⟩).val :=
  dot_S5000x256_S256x128_S5000x128_1_0_0_1_n_n.lhsIdx_val_of_single rfl j q
theorem rhs_contr (j : S5000x128.Idx) (q : dot_S5000x256_S256x128_S5000x128_1_0_0_1_n_n.contr.Idx) : (dot_S5000x256_S256x128_S5000x128_1_0_0_1_n_n.rhsIdx j q 0).val = (q ⟨0, by decide⟩).val :=
  dot_S5000x256_S256x128_S5000x128_1_0_0_1_n_n.rhsIdx_val_of_single rfl j q
theorem rhs_col (j : S5000x128.Idx) (q : dot_S5000x256_S256x128_S5000x128_1_0_0_1_n_n.contr.Idx) : (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The body's stored value at `j`: row `j 0` of the left block against column `j 1` of the right block. -/
theorem payload_apply (x0 : Vec Ideal S5000x256 .f32) (x1 : Vec Ideal S256x128 .f32) (j : S5000x128.Idx) :
    k0_pay1 (F := Ideal) x0 x1 j = ∑ k : Fin 256, x0 (ix2 (j 0) k) * x1 (ix2 k (j 1)) := by
  unfold k0_pay1
  refine (Ideal.matmul_constant_zero_apply dot_S5000x256_S256x128_S5000x128_1_0_0_1_n_n none _ _ j).trans ?_
  exact Cert.Lib.PlainDot.sum_rows_cols dot_S5000x256_S256x128_S5000x128_1_0_0_1_n_n rfl rfl lhs_row lhs_contr rhs_contr rhs_col
    (truncf (F := Ideal) .bf16 x0 bitsLt_bf16_f32) (truncf (F := Ideal) .bf16 x1 bitsLt_bf16_f32) j

/-! ## Block `t` of the output -/

variable (V : (c : Dev nD) → (b : Ref sig .tc) → Buf (Elt Ideal) ((c : Thread nD τ).loc b))

theorem hz : (![0, 0] : Fin 2 → Nat) = fun _ => 0 := funext fun a => by fin_cases a <;> rfl

/-- The three index maps over the grid: the left and output blocks move down with the point, the right block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole output array the stage leaves, as a function of the arrays it finds. -/
abbrev whole (c : Dev nD) : S100000x128.Idx → EReal :=
  Cert.Spec.rowsDotCols (M := 100000) (K := 256) (N := 128) (V c main_arg0) (V c main_arg4)

/-- What point `t` writes back is block `t` of `whole`. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  funext j
  show k0_pay1 (F := Ideal) (iblk0 V c 0 t) (iblk0 V c 1 t) j = whole V c (((cfg0.win 2).blk t).view.emb j)
  rw [payload_apply]
  unfold whole Cert.Spec.rowsDotCols
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  exact congrArg₂ (fun a b : EReal => a * b) (congrArg (V c main_arg0) h0) (congrArg (V c main_arg4) h1)

/-! ## The blocks tile the array -/

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row `r` lies in the block of point `r / 5000`. -/
theorem cover (i : S100000x128.Idx) : ∃ t : Fin cfg0.N, (cfg0.win 2).flush t = true ∧ i ∈ ((cfg0.win 2).blk t).view.set := by
  have hN : grid0.N = 20 := N_0
  have hi0 : (i 0).val < 100000 := (i 0).isLt
  have hi1 : (i 1).val < 128 := (i 1).isLt
  let t : Fin cfg0.N := ⟨(i 0).val / 5000, by show (i 0).val / 5000 < grid0.N; omega⟩
  obtain ⟨e0, e1, e2, e3, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array when the stage is left: `rowsDotCols` of the two arrays the stage found. -/
theorem final (c : Dev nD) : (dat0 V c).arrAt 2 cfg0.N = whole V c :=
  (dat0 V c).arrAt_eq_of_cover 2 (whole V c) (fun t _ => flushed_eq V c t) cover

end Cert.KernelIdeal.Stage0

end
-- ==== Proof.Stage1.lean ====
/-
  The second dense stage: what its output array holds when the stage is left.

  As in the first stage the grid has 20 points and point `t` stages rows `5000·t …` of the left array and the
  whole right array; here the body first replaces every entry of the left block by its maximum with zero, and
  only then multiplies. The clamp is entry by entry, so it commutes with taking a block, and block `t` of the
  output is block `t` of `reluRowsDotCols` of the two whole arrays; the 20 blocks tile the 100000 rows.
-/
import proofs.«116212_j88381837017215_1_alg».proof.Proof.Gen.KernelIdeal.Frame
import proofs.«116212_j88381837017215_1_alg».proof.Proof.Spec
import proofs.«116212_j88381837017215_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Stage1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## One entry of the staged product -/

theorem lhs_row (j : S5000x64.Idx) (q : dot_S5000x128_S128x64_S5000x64_1_0_0_1_n_n.contr.Idx) : (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_contr (j : S5000x64.Idx) (q : dot_S5000x128_S128x64_S5000x64_1_0_0_1_n_n.contr.Idx) : (dot_S5000x128_S128x64_S5000x64_1_0_0_1_n_n.lhsIdx j q 1).val = (q ⟨0, by decide⟩).val :=
  dot_S5000x128_S128x64_S5000x64_1_0_0_1_n_n.lhsIdx_val_of_single rfl j q
theorem rhs_contr (j : S5000x64.Idx) (q : dot_S5000x128_S128x64_S5000x64_1_0_0_1_n_n.contr.Idx) : (dot_S5000x128_S128x64_S5000x64_1_0_0_1_n_n.rhsIdx j q 0).val = (q ⟨0, by decide⟩).val :=
  dot_S5000x128_S128x64_S5000x64_1_0_0_1_n_n.rhsIdx_val_of_single rfl j q
theorem rhs_col (j : S5000x64.Idx) (q : dot_S5000x128_S128x64_S5000x64_1_0_0_1_n_n.contr.Idx) : (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's stored value at `j`: row `j 0` of the clamped left block against column `j 1` of the right block. -/
theorem payload_apply (x0 : Vec Ideal S5000x128 .f32) (x1 : Vec Ideal S128x64 .f32) (j : S5000x64.Idx) :
    k1_pay1 (F := Ideal) x0 x1 j = ∑ k : Fin 128, max (x0 (ix2 (j 0) k)) Cert.Spec.zeroWord * x1 (ix2 k (j 1)) := by
  unfold k1_pay1
  refine (Ideal.matmul_constant_zero_apply dot_S5000x128_S128x64_S5000x64_1_0_0_1_n_n none _ _ j).trans ?_
  refine (Cert.Lib.PlainDot.sum_rows_cols dot_S5000x128_S128x64_S5000x64_1_0_0_1_n_n rfl rfl lhs_row lhs_contr rhs_contr rhs_col _ _ j).trans ?_
  refine Finset.sum_congr rfl fun k _ => ?_
  show max (shapeCast S5000x128 x0 shapeCasts_S5000x128_S5000x128 (ix2 (j 0) k)) Cert.Spec.zeroWord * x1 (ix2 k (j 1)) = _
  rw [shapeCast_self]

/-! ## Block `t` of the output -/

variable (V : (c : Dev nD) → (b : Ref sig .tc) → Buf (Elt Ideal) ((c : Thread nD τ).loc b))

theorem hz : (![0, 0] : Fin 2 → Nat) = fun _ => 0 := funext fun a => by fin_cases a <;> rfl

/-- The three index maps over the grid: the left and output blocks move down with the point, the right block stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole output array the stage leaves, as a function of the arrays it finds. -/
abbrev whole (c : Dev nD) : S100000x64.Idx → EReal :=
  Cert.Spec.reluRowsDotCols (M := 100000) (K := 128) (N := 64) (V c main_v13) (V c main_arg5)

/-- What point `t` writes back is block `t` of `whole`. -/
theorem flushed_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  obtain ⟨e0, e1, e2, e3, e4, e5⟩ := idx_facts t
  funext j
  show k1_pay1 (F := Ideal) (iblk1 V c 0 t) (iblk1 V c 1 t) j = whole V c (((cfg1.win 2).blk t).view.emb j)
  rw [payload_apply]
  unfold whole Cert.Spec.reluRowsDotCols
  refine Finset.sum_congr rfl fun k _ => ?_
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : ((cfg1.win 1).blk t).view.emb (ix2 k (j 1)) = ix2 k ((((cfg1.win 2).blk t).view.emb j) 1) := by
    funext a; apply Fin.ext
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  exact congrArg₂ (fun a b : EReal => max a Cert.Spec.zeroWord * b) (congrArg (V c main_v13) h0) (congrArg (V c main_arg5) h1)

/-! ## The blocks tile the array -/

/-- An index of the array is in point `t`'s block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v14).slice (win1_2.rect t)).set ↔ _
  rw [View.set_slice_whole, Rect.mem_set_unit]
  exact Iff.rfl

/-- Row `r` lies in the block of point `r / 5000`. -/
theorem cover (i : S100000x64.Idx) : ∃ t : Fin cfg1.N, (cfg1.win 2).flush t = true ∧ i ∈ ((cfg1.win 2).blk t).view.set := by
  have hN : grid1.N = 20 := N_1
  have hi0 : (i 0).val < 100000 := (i 0).isLt
  have hi1 : (i 1).val < 64 := (i 1).isLt
  let t : Fin cfg1.N := ⟨(i 0).val / 5000, by show (i 0).val / 5000 < grid1.N; omega⟩
  obtain ⟨e0, e1, e2, e3, e4, e5⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The output array when the stage is left: `reluRowsDotCols` of the two arrays the stage found. -/
theorem final (c : Dev nD) : (dat1 V c).arrAt 2 cfg1.N = whole V c :=
  (dat1 V c).arrAt_eq_of_cover 2 (whole V c) (fun t _ => flushed_eq V c t) cover

end Cert.KernelIdeal.Stage1

end
-- ==== Proof.LibRowSoftmaxGuard.lean ====
/-
  Row-wise softmax with a guarded row maximum, read at an index, at the ideal (extended-real) values.

  Some kernels take the row maximum `m` by a reduction folded from `-∞` and then once more take
  `max (-∞) m` before subtracting it. The extra maximum changes nothing — the fold already starts at `-∞` — so
  the chain `exp (s - max (-∞) (max_row s)) / sum_row (exp (s - max (-∞) (max_row s)))`, both row statistics
  kept as columns and spread back over the lanes, read at `(r, j)` is the softmax of row `r` at lane `j`.
-/
import proofs.«116212_j88381837017215_1_alg».proof.Proof.LibRowSoftmax

noncomputable section

namespace Cert.Lib.RowSoftmaxGuard

open Idealize.ShloMosaic Idealize.ShloMosaic.ValueIdx Cert.Lib.RowSoftmax

/-- The guarded chain read at `(r, j)`: the softmax of row `r` at lane `j`. -/
theorem softmax_rows_guarded_apply {a b : ℕ} (s : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (j : Fin b) :
    divf
        (exp (subf s (broadcastTo ⟨2, ![a, b]⟩ (shapeCast ⟨2, ![a, 1]⟩
          (maximumf (broadcast ⟨1, ![a]⟩ (negInf : Ideal .f32))
            (multiReduction .maximumf [1] ⟨1, ![a]⟩ s 0xFF800000#32 hr hφ hmax)) hc) hb)))
        (broadcastTo ⟨2, ![a, b]⟩ (shapeCast ⟨2, ![a, 1]⟩
          (multiReduction .add [1] ⟨1, ![a]⟩
            (exp (subf s (broadcastTo ⟨2, ![a, b]⟩ (shapeCast ⟨2, ![a, 1]⟩
              (maximumf (broadcast ⟨1, ![a]⟩ (negInf : Ideal .f32))
                (multiReduction .maximumf [1] ⟨1, ![a]⟩ s 0xFF800000#32 hr hφ hmax)) hc) hb)))
            0x00000000#32 hr hφ hadd) hc) hb)
        (ix2 r j)
      = softmaxOf (fun j' => s (ix2 r j')) j := by
  -- the weights, entry by entry
  have hw : ∀ j' : Fin b,
      exp (subf s (broadcastTo ⟨2, ![a, b]⟩ (shapeCast ⟨2, ![a, 1]⟩
          (maximumf (broadcast ⟨1, ![a]⟩ (negInf : Ideal .f32))
            (multiReduction .maximumf [1] ⟨1, ![a]⟩ s 0xFF800000#32 hr hφ hmax)) hc) hb)) (ix2 r j')
        = weightOf (fun j'' => s (ix2 r j'')) j' := by
    intro j'
    show Ideal.exp (s (ix2 r j') - broadcastTo ⟨2, ![a, b]⟩ (shapeCast ⟨2, ![a, 1]⟩
          (maximumf (broadcast ⟨1, ![a]⟩ (negInf : Ideal .f32))
            (multiReduction .maximumf [1] ⟨1, ![a]⟩ s 0xFF800000#32 hr hφ hmax)) hc) hb (ix2 r j')) = _
    rw [keepdims_apply _ hc hb r j']
    show Ideal.exp (s (ix2 r j') - max negInf (multiReduction .maximumf [1] ⟨1, ![a]⟩ s 0xFF800000#32 hr hφ hmax (ix1 r))) = _
    rw [rowMax_apply s _ hr hφ hmax r]
    show Ideal.exp (s (ix2 r j') - max negInf (maxOf fun j'' => s (ix2 r j''))) = _
    rw [max_negInf_maxOf]
    rfl
  show Ideal.div _ _ = _
  rw [hw j, keepdims_apply _ hc hb r j, rowSum_apply _ _ hr hφ hadd r]
  unfold softmaxOf
  exact congrArg (Ideal.div _) (Finset.sum_congr rfl fun j' _ => hw j')

end Cert.Lib.RowSoftmaxGuard

end
-- ==== Proof.Stage2.lean ====
/-
  The last stage: what its output array holds when the stage is left.

  The grid has 20 points; point `t` stages rows `5000·t … 5000·t + 4999` of the input and writes back, as the
  same rows of the output, each row clamped at zero and then normalised by softmax. Both steps act within
  one row, so block `t` of the output is block `t` of `reluRowSoftmax` of the whole input; the 20 blocks tile
  the 100000 rows.
-/
import proofs.«116212_j88381837017215_1_alg».proof.Proof.Gen.KernelIdeal.Frame
import proofs.«116212_j88381837017215_1_alg».proof.Proof.Spec
import proofs.«116212_j88381837017215_1_alg».proof.Proof.LibRowSoftmaxGuard
import Idealize.ShloMosaic.Lib.Pipeline.Value
import Idealize.ShloMosaic.Lib.ValueIdx
import Idealize.ShloMosaic.PureOps.Ideal.Laws

set_option maxRecDepth 16384

noncomputable section

namespace Cert.KernelIdeal.Stage2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.RowSoftmax

/-! ## One entry of the staged block's normalisation -/

/-- The body's stored value at `(r, j)`: the softmax, at lane `j`, of row `r` of the block clamped at zero. -/
theorem payload_apply (x0 : Vec Ideal S5000x64 .f32) (r : Fin 5000) (j : Fin 64) :
    k2_pay1 (F := Ideal) x0 (ix2 r j) = softmaxOf (fun j' => max (x0 (ix2 r j')) Cert.Spec.zeroWord) j := by
  unfold k2_pay1
  refine (Cert.Lib.RowSoftmaxGuard.softmax_rows_guarded_apply
    (maximumf (shapeCast S5000x64 x0 shapeCasts_S5000x64_S5000x64) (broadcast S5000x64 (Cert.Spec.zeroWord : Ideal .f32)))
    reduces_S5000x64_S5000 shapeCasts_S5000_S5000x1 broadcasts_S5000x1_S5000x64 (.inl rfl) rfl rfl r j).trans ?_
  refine congrArg (fun f => softmaxOf f j) (funext fun j' => ?_)
  show max (shapeCast S5000x64 x0 shapeCasts_S5000x64_S5000x64 (ix2 r j')) Cert.Spec.zeroWord = _
  rw [shapeCast_self]

/-! ## Block `t` of the output -/

variable (V : (c : Dev nD) → (b : Ref sig .tc) → Buf (Elt Ideal) ((c : Thread nD τ).loc b))

theorem hz : (![0, 0] : Fin 2 → Nat) = fun _ => 0 := funext fun a => by fin_cases a <;> rfl

/-- The two index maps over the grid: both blocks move down with the point. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- The whole output array the stage leaves, as a function of the array it finds. -/
abbrev whole (c : Dev nD) : S100000x64.Idx → EReal :=
  Cert.Spec.reluRowSoftmax (M := 100000) (N := 64) (V c main_v27)

/-- What point `t` writes back is block `t` of `whole`. -/
theorem flushed_eq (c : Dev nD) (t : Fin cfg2.N) :
    (dat2 V c).flushed 1 t = ((cfg2.win 1).blk t).view.read (Elt Ideal) (whole V c) := by
  show (cfg2.win 1).cut (grid2.coords t) ((dat2 V c).after 1 t) = _
  rw [after2_1]
  unfold out2_1
  rw [View.canon_unit_zero hz]
  simp only [View.ld_unit_zero (S := S5000x64) hz]
  obtain ⟨e0, e1, e2, e3⟩ := idx_facts t
  funext j
  show k2_pay1 (F := Ideal) (iblk2 V c 0 t) j = whole V c (((cfg2.win 1).blk t).view.emb j)
  obtain ⟨p, q, rfl⟩ : ∃ (p : Fin 5000) (q : Fin 64), j = ix2 p q := ⟨j 0, j 1, eq_ix2 j⟩
  rw [payload_apply]
  unfold whole Cert.Spec.reluRowSoftmax
  have hq : (((cfg2.win 1).blk t).view.emb (ix2 p q)) 1 = q := by
    apply Fin.ext
    show win2_1.index t (1 : Fin 2) * 64 + 1 * q.val = q.val; omega
  have hrow : ∀ j' : Fin 64, ((cfg2.win 0).blk t).view.emb (ix2 p j') = ix2 ((((cfg2.win 1).blk t).view.emb (ix2 p q)) 0) j' := by
    intro j'
    funext a; apply Fin.ext
    match a with
    | ⟨0, _⟩ => show win2_0.index t (0 : Fin 2) * 5000 + 1 * p.val = win2_1.index t (0 : Fin 2) * 5000 + 1 * p.val; omega
    | ⟨1, _⟩ => show win2_0.index t (1 : Fin 2) * 64 + 1 * j'.val = j'.val; omega
  rw [hq]
  exact congrArg (fun f => softmaxOf f q) (funext fun j' => congrArg (fun x : EReal => max x Cert.Spec.zeroWord) (congrArg (V c main_v27) (hrow j')))

/-! ## The blocks tile the array -/

/-- An index of the array is in point `t`'s block iff each coordinate is in the block's range on its axis. -/
theorem mem_blk (t : Fin cfg2.N) (i : S100000x64.Idx) :
    i ∈ ((cfg2.win 1).blk t).view.set ↔ ∀ a : Fin 2, win2_1.index t a * S5000x64.size a ≤ (i a).val ∧ (i a).val < win2_1.index t a * S5000x64.size a + S5000x64.size a := by
  show i ∈ ((View.whole main_v28).slice (win2_1.rect t)).set ↔ _
  rw [View.set_slice_whole, Rect.mem_set_unit]
  exact Iff.rfl

/-- Row `r` lies in the block of point `r / 5000`. -/
theorem cover (i : S100000x64.Idx) : ∃ t : Fin cfg2.N, (cfg2.win 1).flush t = true ∧ i ∈ ((cfg2.win 1).blk t).view.set := by
  have hN : grid2.N = 20 := N_2
  have hi0 : (i 0).val < 100000 := (i 0).isLt
  have hi1 : (i 1).val < 64 := (i 1).isLt
  let t : Fin cfg2.N := ⟨(i 0).val / 5000, by show (i 0).val / 5000 < grid2.N; omega⟩
  obtain ⟨e0, e1, e2, e3⟩ := idx_facts t
  have ht : t.val = (i 0).val / 5000 := rfl
  refine ⟨t, flush2_1 t, ?_⟩
  rw [mem_blk]
  intro a
  match a with
  | ⟨0, _⟩ => show win2_1.index t (0 : Fin 2) * 5000 ≤ (i 0).val ∧ (i 0).val < win2_1.index t (0 : Fin 2) * 5000 + 5000; omega
  | ⟨1, _⟩ => show win2_1.index t (1 : Fin 2) * 64 ≤ (i 1).val ∧ (i 1).val < win2_1.index t (1 : Fin 2) * 64 + 64; omega

/-- The output array when the stage is left: `reluRowSoftmax` of the array the stage found. -/
theorem final (c : Dev nD) : (dat2 V c).arrAt 1 cfg2.N = whole V c :=
  (dat2 V c).arrAt_eq_of_cover 1 (whole V c) (fun t _ => flushed_eq V c t) cover

end Cert.KernelIdeal.Stage2

end
-- ==== Proof.KernelEdges.lean ====
/-
  The sparse aggregation both programs run on the host, as one function, and the whole network over it.

  For every edge `e` the row `col e` of a dense array is gathered (a negative index first wrapped around by
  adding the number of rows), scaled by the edge's weight `val e`, and added into row `row e` of an array of
  zeros. Nothing here is opened: the two programs apply the same operations to equal values, so the
  aggregation travels through the proof as a name. `network` is the two dense layers and the normalisation
  of the specification with this aggregation between them.
-/
import proofs.«116212_j88381837017215_1_alg».proof.KernelIdeal
import proofs.«116212_j88381837017215_1_alg».proof.Proof.Gen.KernelIdeal
import proofs.«116212_j88381837017215_1_alg».proof.Proof.Spec

noncomputable section

namespace Cert.KernelIdeal.Edges

open Cert.KernelIdeal Idealize.ShloMosaic
open Cert.KernelIdeal.Facts₀ Cert.KernelIdeal.Facts

/-- Gather along `col`, scale by `val`, add into the rows `row` of zeros: 128 lanes. -/
def aggregate128 (row col : (⟨S1600000, .i32⟩ : BufTy).Contents (Elt Ideal)) (val : (⟨S1600000, .f32⟩ : BufTy).Contents (Elt Ideal))
    (y : (⟨S100000x128, .f32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 row)
    (mulf (broadcastInDim S1600000x128 ![0, 1] bcast_S1600000x1_S1600000x128_0_1 (broadcastInDim S1600000x1 ![0] bcast_S1600000_S1600000x1_0 val))
      (Host.gather gather_S100000x128_S1600000x1_S1600000x128_1_0_n_n_0_1_1128 y
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- The same over 64 lanes. -/
def aggregate64 (row col : (⟨S1600000, .i32⟩ : BufTy).Contents (Elt Ideal)) (val : (⟨S1600000, .f32⟩ : BufTy).Contents (Elt Ideal))
    (y : (⟨S100000x64, .f32⟩ : BufTy).Contents (Elt Ideal)) : (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 row)
    (mulf (broadcastInDim S1600000x64 ![0, 1] bcast_S1600000x1_S1600000x64_0_1 (broadcastInDim S1600000x1 ![0] bcast_S1600000_S1600000x1_0 val))
      (Host.gather gather_S100000x64_S1600000x1_S1600000x64_1_0_n_n_0_1_164 y
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- The network: dense layer, aggregation, clamp and dense layer, aggregation, clamp and row softmax. -/
def network (a0 : (⟨S100000x256, .f32⟩ : BufTy).Contents (Elt Ideal)) (row col : (⟨S1600000, .i32⟩ : BufTy).Contents (Elt Ideal))
    (val : (⟨S1600000, .f32⟩ : BufTy).Contents (Elt Ideal)) (w1 : (⟨S256x128, .f32⟩ : BufTy).Contents (Elt Ideal))
    (w2 : (⟨S128x64, .f32⟩ : BufTy).Contents (Elt Ideal)) : (⟨S100000x64, .f32⟩ : BufTy).Contents (Elt Ideal) :=
  Cert.Spec.reluRowSoftmax (M := 100000) (N := 64)
    (aggregate64 row col val
      (Cert.Spec.reluRowsDotCols (M := 100000) (K := 128) (N := 64)
        (aggregate128 row col val (Cert.Spec.rowsDotCols (M := 100000) (K := 256) (N := 128) a0 w1)) w2))

end Cert.KernelIdeal.Edges

end
-- ==== Proof.KernelValue.lean ====
/-
  The idealized kernel program's result, as the network of its arguments.

  The contents of the result buffer at the last boundary are read back through the fold of the six
  boundaries: the last stage's array is `reluRowSoftmax` of what the second host stretch left, that stretch
  is the 64-lane aggregation of the second stage's array, which is `reluRowsDotCols` of what the first host
  stretch left and the second weight matrix, that stretch is the 128-lane aggregation of the first stage's
  array, which is `rowsDotCols` of the features and the first weight matrix. No stage and no host operation
  writes an argument, so every argument read along the way is the launch memory's.
-/
import proofs.«116212_j88381837017215_1_alg».proof.Proof.Gen.KernelIdeal.Frame
import proofs.«116212_j88381837017215_1_alg».proof.Proof.Stage0
import proofs.«116212_j88381837017215_1_alg».proof.Proof.Stage1
import proofs.«116212_j88381837017215_1_alg».proof.Proof.Stage2
import proofs.«116212_j88381837017215_1_alg».proof.Proof.KernelEdges
import Idealize.ShloMosaic.Lib.StableHlo.Run

set_option maxRecDepth 16384

noncomputable section

namespace Cert.KernelIdeal.Through

open Cert.KernelIdeal Cert.KernelIdeal.Gen Cert.KernelIdeal.Edges
open Idealize.ShloMosaic Idealize.ShloMosaic.TcCoe Idealize.SL.Sem Idealize.ShloMosaic.StableHlo

/-- No operation of a host stretch writes the reference in the goal. -/
local macro "not_written" : tactic => `(tactic| (
  refine List.forall_iff_forall_mem.mp ?_
  simp only [hostOps1, hostOps2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The two host stretches, from any contents -/

/-- The first stretch leaves, in its last buffer, the 128-lane aggregation of the first stage's array. -/
theorem stretch1 (W : Valuation τ sig (Elt Ideal)) :
    StableHlo.after hostOps1 W (Proc.devRef .tc main_v13)
      = aggregate128 (W (Proc.devRef .tc main_arg1)) (W (Proc.devRef .tc main_arg2)) (W (Proc.devRef .tc main_arg3))
          (W (Proc.devRef .tc main_v0)) := by
  unfold aggregate128
  after_results

/-- The second stretch leaves, in its last buffer, the 64-lane aggregation of the second stage's array. -/
theorem stretch2 (W : Valuation τ sig (Elt Ideal)) :
    StableHlo.after hostOps2 W (Proc.devRef .tc main_v27)
      = aggregate64 (W (Proc.devRef .tc main_arg1)) (W (Proc.devRef .tc main_arg2)) (W (Proc.devRef .tc main_arg3))
          (W (Proc.devRef .tc main_v14)) := by
  unfold aggregate64
  after_results

variable (m : (ℓ : Loc nD τ sig) → Buf (Elt Ideal) ℓ) (ρ : Dev nD → PrngReg)

/-! ## After the first stage -/

theorem W1_arg1 (c : Dev nD) : W1 m ρ c (Proc.devRef .tc main_arg1) = m ((c : Thread nD τ).loc main_arg1) := W1_of_ne m ρ c main_arg1 (by decide)
theorem W1_arg2 (c : Dev nD) : W1 m ρ c (Proc.devRef .tc main_arg2) = m ((c : Thread nD τ).loc main_arg2) := W1_of_ne m ρ c main_arg2 (by decide)
theorem W1_arg3 (c : Dev nD) : W1 m ρ c (Proc.devRef .tc main_arg3) = m ((c : Thread nD τ).loc main_arg3) := W1_of_ne m ρ c main_arg3 (by decide)
theorem W1_arg5 (c : Dev nD) : W1 m ρ c (Proc.devRef .tc main_arg5) = m ((c : Thread nD τ).loc main_arg5) := W1_of_ne m ρ c main_arg5 (by decide)

/-- The first stage's array: the features against the first weight matrix. -/
theorem W1_v0 (c : Dev nD) : W1 m ρ c (Proc.devRef .tc main_v0)
    = Cert.Spec.rowsDotCols (M := 100000) (K := 256) (N := 128) (m ((c : Thread nD τ).loc main_arg0)) (m ((c : Thread nD τ).loc main_arg4)) :=
  (W1_arr m ρ c 2).trans (Stage0.final (V0 m ρ) c)

/-! ## After the first host stretch -/

theorem W2_arg1 (c : Dev nD) : W2 m ρ c (Proc.devRef .tc main_arg1) = m ((c : Thread nD τ).loc main_arg1) :=
  (StableHlo.after_of_forall_not_mem (b := Proc.devRef .tc main_arg1) _ _ (by not_written)).trans (W1_arg1 m ρ c)
theorem W2_arg2 (c : Dev nD) : W2 m ρ c (Proc.devRef .tc main_arg2) = m ((c : Thread nD τ).loc main_arg2) :=
  (StableHlo.after_of_forall_not_mem (b := Proc.devRef .tc main_arg2) _ _ (by not_written)).trans (W1_arg2 m ρ c)
theorem W2_arg3 (c : Dev nD) : W2 m ρ c (Proc.devRef .tc main_arg3) = m ((c : Thread nD τ).loc main_arg3) :=
  (StableHlo.after_of_forall_not_mem (b := Proc.devRef .tc main_arg3) _ _ (by not_written)).trans (W1_arg3 m ρ c)
theorem W2_arg5 (c : Dev nD) : W2 m ρ c (Proc.devRef .tc main_arg5) = m ((c : Thread nD τ).loc main_arg5) :=
  (StableHlo.after_of_forall_not_mem (b := Proc.devRef .tc main_arg5) _ _ (by not_written)).trans (W1_arg5 m ρ c)

/-- What the first stretch leaves for the second stage: the aggregation of the first stage's array. -/
theorem W2_v13 (c : Dev nD) : W2 m ρ c (Proc.devRef .tc main_v13)
    = aggregate128 (m ((c : Thread nD τ).loc main_arg1)) (m ((c : Thread nD τ).loc main_arg2)) (m ((c : Thread nD τ).loc main_arg3))
        (Cert.Spec.rowsDotCols (M := 100000) (K := 256) (N := 128) (m ((c : Thread nD τ).loc main_arg0)) (m ((c : Thread nD τ).loc main_arg4))) := by
  show StableHlo.after hostOps1 (W1 m ρ c) (Proc.devRef .tc main_v13) = _
  rw [stretch1, W1_arg1, W1_arg2, W1_arg3, W1_v0]

/-! ## After the second stage -/

theorem W3_arg1 (c : Dev nD) : W3 m ρ c (Proc.devRef .tc main_arg1) = m ((c : Thread nD τ).loc main_arg1) :=
  (W3_of_ne m ρ c main_arg1 (by decide)).trans (W2_arg1 m ρ c)
theorem W3_arg2 (c : Dev nD) : W3 m ρ c (Proc.devRef .tc main_arg2) = m ((c : Thread nD τ).loc main_arg2) :=
  (W3_of_ne m ρ c main_arg2 (by decide)).trans (W2_arg2 m ρ c)
theorem W3_arg3 (c : Dev nD) : W3 m ρ c (Proc.devRef .tc main_arg3) = m ((c : Thread nD τ).loc main_arg3) :=
  (W3_of_ne m ρ c main_arg3 (by decide)).trans (W2_arg3 m ρ c)

/-- The second stage's array: the clamped aggregation against the second weight matrix. -/
theorem W3_v14 (c : Dev nD) : W3 m ρ c (Proc.devRef .tc main_v14)
    = Cert.Spec.reluRowsDotCols (M := 100000) (K := 128) (N := 64)
        (aggregate128 (m ((c : Thread nD τ).loc main_arg1)) (m ((c : Thread nD τ).loc main_arg2)) (m ((c : Thread nD τ).loc main_arg3))
          (Cert.Spec.rowsDotCols (M := 100000) (K := 256) (N := 128) (m ((c : Thread nD τ).loc main_arg0)) (m ((c : Thread nD τ).loc main_arg4))))
        (m ((c : Thread nD τ).loc main_arg5)) := by
  refine (W3_arr m ρ c 2).trans ((Stage1.final (V2 m ρ) c).trans ?_)
  show Cert.Spec.reluRowsDotCols (M := 100000) (K := 128) (N := 64) (W2 m ρ c (Proc.devRef .tc main_v13)) (W2 m ρ c (Proc.devRef .tc main_arg5)) = _
  rw [W2_v13, W2_arg5]

/-! ## After the second host stretch, and the last stage -/

/-- What the second stretch leaves for the last stage: the aggregation of the second stage's array. -/
theorem W4_v27 (c : Dev nD) : W4 m ρ c (Proc.devRef .tc main_v27)
    = aggregate64 (m ((c : Thread nD τ).loc main_arg1)) (m ((c : Thread nD τ).loc main_arg2)) (m ((c : Thread nD τ).loc main_arg3))
        (Cert.Spec.reluRowsDotCols (M := 100000) (K := 128) (N := 64)
          (aggregate128 (m ((c : Thread nD τ).loc main_arg1)) (m ((c : Thread nD τ).loc main_arg2)) (m ((c : Thread nD τ).loc main_arg3))
            (Cert.Spec.rowsDotCols (M := 100000) (K := 256) (N := 128) (m ((c : Thread nD τ).loc main_arg0)) (m ((c : Thread nD τ).loc main_arg4))))
          (m ((c : Thread nD τ).loc main_arg5))) := by
  show StableHlo.after hostOps2 (W3 m ρ c) (Proc.devRef .tc main_v27) = _
  rw [stretch2, W3_arg1, W3_arg2, W3_arg3, W3_v14]

/-- The result buffer at the last boundary: the network of the six arguments. -/
theorem result (c : Dev nD) : W5 m ρ c (Proc.devRef .tc main_v28)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W5_arr m ρ c 1).trans ((Stage2.final (V4 m ρ) c).trans ?_)
  show Cert.Spec.reluRowSoftmax (M := 100000) (N := 64) (W4 m ρ c (Proc.devRef .tc main_v27)) = _
  rw [W4_v27]
  rfl

end Cert.KernelIdeal.Through

end
-- ==== Proof.ReferenceEdges.lean ====
/-
  The sparse aggregation both programs run on the host, as one function, and the whole network over it.

  For every edge `e` the row `col e` of a dense array is gathered (a negative index first wrapped around by
  adding the number of rows), scaled by the edge's weight `val e`, and added into row `row e` of an array of
  zeros. Nothing here is opened: the two programs apply the same operations to equal values, so the
  aggregation travels through the proof as a name. `network` is the two dense layers and the normalisation
  of the specification with this aggregation between them.
-/
import proofs.«116212_j88381837017215_1_alg».proof.ReferenceIdeal
import proofs.«116212_j88381837017215_1_alg».proof.Proof.Gen.ReferenceIdeal
import proofs.«116212_j88381837017215_1_alg».proof.Proof.Spec

noncomputable section

namespace Cert.ReferenceIdeal.Edges

open Cert.ReferenceIdeal Idealize.ShloMosaic
open Cert.ReferenceIdeal.Facts₀ Cert.ReferenceIdeal.Facts

/-- Gather along `col`, scale by `val`, add into the rows `row` of zeros: 128 lanes. -/
def aggregate128 (row col : (⟨S1600000, .i32⟩ : BufTy).Contents (Elt Ideal)) (val : (⟨S1600000, .f32⟩ : BufTy).Contents (Elt Ideal))
    (y : (⟨S100000x128, .f32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 row)
    (mulf (broadcastInDim S1600000x128 ![0, 1] bcast_S1600000x1_S1600000x128_0_1 (broadcastInDim S1600000x1 ![0] bcast_S1600000_S1600000x1_0 val))
      (Host.gather gather_S100000x128_S1600000x1_S1600000x128_1_0_n_n_0_1_1128 y
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- The same over 64 lanes. -/
def aggregate64 (row col : (⟨S1600000, .i32⟩ : BufTy).Contents (Elt Ideal)) (val : (⟨S1600000, .f32⟩ : BufTy).Contents (Elt Ideal))
    (y : (⟨S100000x64, .f32⟩ : BufTy).Contents (Elt Ideal)) : (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 row)
    (mulf (broadcastInDim S1600000x64 ![0, 1] bcast_S1600000x1_S1600000x64_0_1 (broadcastInDim S1600000x1 ![0] bcast_S1600000_S1600000x1_0 val))
      (Host.gather gather_S100000x64_S1600000x1_S1600000x64_1_0_n_n_0_1_164 y
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- The network: dense layer, aggregation, clamp and dense layer, aggregation, clamp and row softmax. -/
def network (a0 : (⟨S100000x256, .f32⟩ : BufTy).Contents (Elt Ideal)) (row col : (⟨S1600000, .i32⟩ : BufTy).Contents (Elt Ideal))
    (val : (⟨S1600000, .f32⟩ : BufTy).Contents (Elt Ideal)) (w1 : (⟨S256x128, .f32⟩ : BufTy).Contents (Elt Ideal))
    (w2 : (⟨S128x64, .f32⟩ : BufTy).Contents (Elt Ideal)) : (⟨S100000x64, .f32⟩ : BufTy).Contents (Elt Ideal) :=
  Cert.Spec.reluRowSoftmax (M := 100000) (N := 64)
    (aggregate64 row col val
      (Cert.Spec.reluRowsDotCols (M := 100000) (K := 128) (N := 64)
        (aggregate128 row col val (Cert.Spec.rowsDotCols (M := 100000) (K := 256) (N := 128) a0 w1)) w2))

end Cert.ReferenceIdeal.Edges

end
-- ==== Proof.RefValue.lean ====
/-
  The idealized reference program's result, as the network of its arguments.

  The reference is one line of host operations. Read one operation at a time: its two matrix products are
  `rowsDotCols` and, after the clamp at zero, `reluRowsDotCols`; the operations between them are the
  aggregation, kept as a name; and its tail — clamp, row maximum folded from `-∞` and once more guarded by
  `-∞`, subtraction, `exp`, row sum from zero, division — is `reluRowSoftmax`.
-/
import proofs.«116212_j88381837017215_1_alg».proof.Proof.Gen.ReferenceIdeal.Read
import proofs.«116212_j88381837017215_1_alg».proof.Proof.ReferenceEdges
import proofs.«116212_j88381837017215_1_alg».proof.Proof.Spec
import proofs.«116212_j88381837017215_1_alg».proof.Proof.LibRowSoftmax
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.ReferenceIdeal.Edges
open Idealize.ShloMosaic Idealize.ShloMosaic.ValueIdx Cert.Lib.RowSoftmax

variable (x0 : (⟨S100000x256, .f32⟩ : BufTy).Contents (Elt Ideal)) (x1 x2 : (⟨S1600000, .i32⟩ : BufTy).Contents (Elt Ideal)) (x3 : (⟨S1600000, .f32⟩ : BufTy).Contents (Elt Ideal)) (x4 : (⟨S256x128, .f32⟩ : BufTy).Contents (Elt Ideal)) (x5 : (⟨S128x64, .f32⟩ : BufTy).Contents (Elt Ideal))

/-! ## The two dense layers -/

/-- The first product: rows of the features against columns of the first weight matrix. -/
theorem layer1 : val_main_v0 (F := Ideal) x0 x4 = Cert.Spec.rowsDotCols (M := 100000) (K := 256) (N := 128) x0 x4 := by
  funext i
  rw [val_main_v0_apply]
  unfold Cert.Spec.rowsDotCols
  refine Finset.sum_congr rfl fun k _ => ?_
  have el : lidx_main_v0 i k = ix2 (i 0) k := funext fun a => Fin.ext (by match a with | ⟨0, _⟩ => rfl | ⟨1, _⟩ => rfl)
  have er : ridx_main_v0 i k = ix2 k (i 1) := funext fun a => Fin.ext (by match a with | ⟨0, _⟩ => rfl | ⟨1, _⟩ => rfl)
  exact congrArg₂ (fun a b : EReal => a * b) (congrArg x0 el) (congrArg x4 er)

/-- Between the products: the 128-lane aggregation of the first product. -/
theorem between1 : val_main_v13 (F := Ideal) x0 x1 x2 x3 x4 = aggregate128 x1 x2 x3 (val_main_v0 (F := Ideal) x0 x4) := by
  unfold aggregate128 val_main_v13 val_main_v10 val_main_v8
  rfl

/-- The second product: rows of the clamped aggregation against columns of the second weight matrix. -/
theorem layer2 : val_main_v15 (F := Ideal) x0 x1 x2 x3 x4 x5
    = Cert.Spec.reluRowsDotCols (M := 100000) (K := 128) (N := 64) (val_main_v13 (F := Ideal) x0 x1 x2 x3 x4) x5 := by
  funext i
  rw [val_main_v15_apply]
  unfold Cert.Spec.reluRowsDotCols
  refine Finset.sum_congr rfl fun k _ => ?_
  have el : lidx_main_v15 i k = ix2 (i 0) k := funext fun a => Fin.ext (by match a with | ⟨0, _⟩ => rfl | ⟨1, _⟩ => rfl)
  have er : ridx_main_v15 i k = ix2 k (i 1) := funext fun a => Fin.ext (by match a with | ⟨0, _⟩ => rfl | ⟨1, _⟩ => rfl)
  have hv : ∀ j : S100000x128.Idx, val_main_v14 (F := Ideal) x0 x1 x2 x3 x4 j
      = max (val_main_v13 (F := Ideal) x0 x1 x2 x3 x4 j) Cert.Spec.zeroWord := fun j => by
    rw [val_main_v14_apply, val_main_call0_v0_apply]
    rfl
  rw [hv]
  exact congrArg₂ (fun a b : EReal => max a Cert.Spec.zeroWord * b)
    (congrArg (val_main_v13 (F := Ideal) x0 x1 x2 x3 x4) el) (congrArg x5 er)

/-- After the second product: its 64-lane aggregation. -/
theorem between2 : val_main_v28 (F := Ideal) x0 x1 x2 x3 x4 x5 = aggregate64 x1 x2 x3 (val_main_v15 (F := Ideal) x0 x1 x2 x3 x4 x5) := by
  unfold aggregate64 val_main_v28 val_main_v25 val_main_v23
  rfl

/-! ## The tail: clamp and row softmax -/

/-- The clamped array, at an index. -/
theorem clamped (i : S100000x64.Idx) :
    val_main_v29 (F := Ideal) x0 x1 x2 x3 x4 x5 i = max (val_main_v28 (F := Ideal) x0 x1 x2 x3 x4 x5 i) Cert.Spec.zeroWord := by
  rw [val_main_v29_apply, val_main_call1_v0_apply]
  rfl

/-- The host's maximum over the lanes, at row `r`: the fold from `-∞` over that row of the clamped array. -/
theorem rowMax (r : Fin 100000) :
    val_main_v30 (F := Ideal) x0 x1 x2 x3 x4 x5 (ix1 r) = maxOf (fun j : Fin 64 => val_main_v29 (F := Ideal) x0 x1 x2 x3 x4 x5 (ix2 r j)) := by
  unfold val_main_v30
  generalize val_main_v29 (F := Ideal) x0 x1 x2 x3 x4 x5 = y
  have hred : S100000x64.Reduces [1] S100000 := by decide
  refine (Host.reduce_eq_fold_single (FloatOps.maximumf (F := Ideal) (φ := .f32)) y _ reducesTo_S100000x64_S100000_d1 hred h_S_ (ix1 r)).trans ?_
  show (Finset.univ : Finset (Fin 64)).fold max negInf (fun j => y (hred.lift (ix1 r) j)) = _
  unfold maxOf
  exact congrArg (fun f => (Finset.univ : Finset (Fin 64)).fold max negInf f) (funext fun j => congrArg y (lift_row hred r j))

/-- The reference's tail is the row softmax of the clamped aggregation. -/
theorem tail : val_main_v40 (F := Ideal) x0 x1 x2 x3 x4 x5
    = Cert.Spec.reluRowSoftmax (M := 100000) (N := 64) (val_main_v28 (F := Ideal) x0 x1 x2 x3 x4 x5) := by
  funext i
  obtain ⟨r, j, rfl⟩ : ∃ (r : Fin 100000) (j : Fin 64), i = ix2 r j := ⟨i 0, i 1, eq_ix2 i⟩
  -- the subtracted statistic is the row's maximum, at every lane
  have hmax : ∀ j' : Fin 64, val_main_v34 (F := Ideal) x0 x1 x2 x3 x4 x5 (ix2 r j')
      = maxOf (fun j'' : Fin 64 => val_main_v29 (F := Ideal) x0 x1 x2 x3 x4 x5 (ix2 r j'')) := fun j' => by
    rw [val_main_v34_apply, val_main_v33_apply, val_main_v32_apply, val_main_v31_apply]
    have hi : idx_main_v33 (idx_main_v34 (ix2 r j')) = ix1 r := funext fun a => Fin.ext (by match a with | ⟨0, _⟩ => rfl)
    rw [hi, rowMax]
    exact max_negInf_maxOf _
  -- the weights, entry by entry
  have hw : ∀ j' : Fin 64, val_main_v36 (F := Ideal) x0 x1 x2 x3 x4 x5 (ix2 r j')
      = weightOf (fun j'' : Fin 64 => val_main_v29 (F := Ideal) x0 x1 x2 x3 x4 x5 (ix2 r j'')) j' := fun j' => by
    rw [val_main_v36_apply, val_main_v35_apply, hmax, Ideal.hostUnary_exp_def, Ideal.subf_def]
    rfl
  -- the divisor is the sum of the row's weights
  have hsum : val_main_v39 (F := Ideal) x0 x1 x2 x3 x4 x5 (ix2 r j)
      = ∑ j' : Fin 64, weightOf (fun j'' : Fin 64 => val_main_v29 (F := Ideal) x0 x1 x2 x3 x4 x5 (ix2 r j'')) j' := by
    rw [val_main_v39_apply, val_main_v38_apply]
    have hi : idx_main_v38 (idx_main_v39 (ix2 r j)) = ix1 r := funext fun a => Fin.ext (by match a with | ⟨0, _⟩ => rfl)
    rw [hi, val_main_v37_apply]
    have h0 : val_main_cst_6 (F := Ideal) (Shape.Idx.first h_S_) = 0 := Ideal.ofBits_zero_f32
    rw [h0, zero_add]
    refine Finset.sum_congr rfl fun k _ => ?_
    have hk : idx_main_v37 (ix1 r) k = ix2 r k := funext fun a => Fin.ext (by match a with | ⟨0, _⟩ => rfl | ⟨1, _⟩ => rfl)
    rw [hk, hw]
  rw [val_main_v40_apply, hw, hsum]
  have hf : (fun j'' : Fin 64 => val_main_v29 (F := Ideal) x0 x1 x2 x3 x4 x5 (ix2 r j''))
      = fun j'' : Fin 64 => max (val_main_v28 (F := Ideal) x0 x1 x2 x3 x4 x5 (ix2 r j'')) Cert.Spec.zeroWord :=
    funext fun j'' => clamped x0 x1 x2 x3 x4 x5 (ix2 r j'')
  rw [hf]
  rfl

/-! ## The whole reference -/

/-- The reference's result is the network of its six arguments. -/
theorem result : val_main_v40 (F := Ideal) x0 x1 x2 x3 x4 x5 = network x0 x1 x2 x3 x4 x5 := by
  rw [tail, between2, layer2, between1, layer1]
  rfl

end Cert.ReferenceIdeal.RefValue

end
-- ==== Proof.lean ====
/-
  The certificate of a two-layer graph network against its reference, on the extended reals.

  Both programs compute `softmax_rows (relu (A · (relu (A · (X · W₁)) · W₂)))`, where `A ·` is the sparse
  aggregation given by the edge lists (gather a row per edge, scale it, add it into the edge's target row).
  The kernel program runs the three dense pieces — `X · W₁`, `relu(·) · W₂`, `softmax_rows (relu (·))` — as
  tiled stages of 20 blocks of 5000 rows each and the two aggregations as host operations between them; the
  reference runs everything as host operations. On the extended reals a change of float format is the
  identity, a product block depends only on its own rows, and clamp and softmax act within a row, so each
  stage's array is the same whole-array function the reference applies; the aggregations are the same
  operations on equal values and are never opened. No law of arithmetic beyond reading sums index by index
  is used, so the precondition is not opened either.

  The three frame claims are the generated frames (the reference's is its generated run with the result
  dropped); the idealization rewrote nothing, so `preserves` is trivial.
-/
import proofs.«116212_j88381837017215_1_alg».proof.Defs
import proofs.«116212_j88381837017215_1_alg».proof.Proof.Gen.Kernel
import proofs.«116212_j88381837017215_1_alg».proof.Proof.Gen.Kernel.Frame
import proofs.«116212_j88381837017215_1_alg».proof.Proof.Gen.KernelIdeal
import proofs.«116212_j88381837017215_1_alg».proof.Proof.Gen.KernelIdeal.Frame
import proofs.«116212_j88381837017215_1_alg».proof.Proof.Gen.ReferenceIdeal
import proofs.«116212_j88381837017215_1_alg».proof.Proof.Gen.ReferenceIdeal.Run
import proofs.«116212_j88381837017215_1_alg».proof.Proof.Gen.ReferenceIdeal.Read
import proofs.«116212_j88381837017215_1_alg».proof.Proof.Gen.Pre_finite_inputs
import proofs.«116212_j88381837017215_1_alg».proof.Proof.KernelRun
import proofs.«116212_j88381837017215_1_alg».proof.Proof.KernelValue
import proofs.«116212_j88381837017215_1_alg».proof.Proof.RefValue
import Idealize.ShloMosaic.Adequacy
import Idealize.ShloMosaic.Init

noncomputable section

namespace Cert.Proof

open Idealize.ShloMosaic Idealize.ShloMosaic.TcCoe Idealize.SL.Sem

/-- The network over the kernel program's names is the network over the reference's: the two spell the same
    aggregation with their own copies of the same shape records. -/
theorem network_eq : @Cert.KernelIdeal.Edges.network = @Cert.ReferenceIdeal.Edges.network := rfl

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network of the arguments in their result. -/
theorem algebraic : Cert.algebraic_KernelIdeal_ReferenceIdeal := by
  intro m ρ m' ρ' _ hagree
  refine ⟨fun c => Cert.KernelIdeal.Edges.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Through.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v40_eq, Cert.ReferenceIdeal.RefValue.result,
      (hagree c).1, (hagree c).2.1, (hagree c).2.2.1, (hagree c).2.2.2.1, (hagree c).2.2.2.2.1, (hagree c).2.2.2.2.2,
      ← network_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
